-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x13 : Shape := ⟨2, ![50000, 13]⟩
abbrev S2x800000 : Shape := ⟨2, ![2, 800000]⟩
abbrev S800000 : Shape := ⟨1, ![800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x13 : S_.BroadcastsInDim S50000x13 (![] : Fin 0 → Fin S50000x13.rank)
  reducesTo_S50000x13_S_d0_1 : S50000x13.ReducesTo [0, 1] S_
  h_S_ : 0 < S_.numel
  bcast_S_S800000 : S_.BroadcastsInDim S800000 (![] : Fin 0 → Fin S800000.rank)
  reducesTo_S800000_S_d0 : S800000.ReducesTo [0] S_
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64x1 .f32) (main_arg16 : FVec F S1 .f32) (main_arg17 : FVec F S64x1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S64x1 .f32 := Host.absf main_arg17
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  main_v83

def fn_part3 {F : FTy → Type} [FloatOps F] (main_arg12 : FVec F S64x64 .f32) (main_arg13 : FVec F S64 .f32) (main_arg14 : FVec F S64x64 .f32) (main_arg15 : FVec F S64x1 .f32) (main_arg16 : FVec F S1 .f32) (main_arg17 : FVec F S64x1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_v63 main_v67

def fn_part2 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) (main_arg17 : FVec F S64x1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_v48 main_v49 main_v50

def fn_part1 {F : FTy → Type} [FloatOps F] (main_arg5 : FVec F S13x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) (main_arg17 : FVec F S64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S13x64 .f32 := Host.absf main_arg5
  let main_cst_6 : FVec F S_ .f32 := constant S_ .f32 0x7F800000#32
  let main_v20 : FVec F S13x64 .f32 := broadcastInDim S13x64 ![] bcast_S_S13x64 main_cst_6
  let main_v21 : IVec S13x64 1 := cmpf .olt main_v19 main_v20
  let main_c_7 : IVec S_ 1 := constantI S_ 1 1#1
  let main_v22 : IVec S_ 1 := (fun x v => Host.reduce IntOp.andi x v reducesTo_S13x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x13 .f32) (main_arg1 : IVec S2x800000 32) (main_arg2 : FVec F S800000 .f32) (main_arg3 : FVec F S13x64 .f32) (main_arg4 : FVec F S64 .f32) (main_arg5 : FVec F S13x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x1 .f32) (main_arg16 : FVec F S1 .f32) (main_arg17 : FVec F S64x1 .f32) : IVec S_ 1 :=
  let main_v0 : FVec F S50000x13 .f32 := Host.absf main_arg0
  let main_cst : FVec F S_ .f32 := constant S_ .f32 0x7F800000#32
  let main_v1 : FVec F S50000x13 .f32 := broadcastInDim S50000x13 ![] bcast_S_S50000x13 main_cst
  let main_v2 : IVec S50000x13 1 := cmpf .olt main_v0 main_v1
  let main_c : IVec S_ 1 := constantI S_ 1 1#1
  let main_v3 : IVec S_ 1 := (fun x v => Host.reduce IntOp.andi x v reducesTo_S50000x13_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S13x64 .f32 := Host.absf main_arg3
  let main_cst_2 : FVec F S_ .f32 := constant S_ .f32 0x7F800000#32
  let main_v10 : FVec F S13x64 .f32 := broadcastInDim S13x64 ![] bcast_S_S13x64 main_cst_2
  let main_v11 : IVec S13x64 1 := cmpf .olt main_v9 main_v10
  let main_c_3 : IVec S_ 1 := constantI S_ 1 1#1
  let main_v12 : IVec S_ 1 := (fun x v => Host.reduce IntOp.andi x v reducesTo_S13x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x13 : Shape := ⟨2, ![50000, 13]⟩
abbrev S2x800000 : Shape := ⟨2, ![2, 800000]⟩
abbrev S800000 : Shape := ⟨1, ![800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000x1 : Shape := ⟨2, ![800000, 1]⟩
abbrev S_ : Shape := ⟨0, ![]⟩
abbrev S800000x13 : Shape := ⟨2, ![800000, 13]⟩
abbrev S1x64 : Shape := ⟨2, ![1, 64]⟩
abbrev S50000x64 : Shape := ⟨2, ![50000, 64]⟩
abbrev S10000x13 : Shape := ⟨2, ![10000, 13]⟩
abbrev S10000x64 : Shape := ⟨2, ![10000, 64]⟩
abbrev S800000x64 : Shape := ⟨2, ![800000, 64]⟩
abbrev S1x1 : Shape := ⟨2, ![1, 1]⟩
abbrev S50000x1 : Shape := ⟨2, ![50000, 1]⟩
abbrev S10000x1 : Shape := ⟨2, ![10000, 1]⟩

abbrev nBuf : Space → Nat
  | .hbm => 112
  | .vmem => 45
  | .smem => 0
  | _ => 0

abbrev bufTy : (tb : Table) → Fin (tcTables nBuf tb) → BufTy
  | .hbm, ⟨0, _⟩ => ⟨S50000x13, .f32⟩
  | .hbm, ⟨1, _⟩ => ⟨S2x800000, .i32⟩
  | .hbm, ⟨2, _⟩ => ⟨S800000, .f32⟩
  | .hbm, ⟨3, _⟩ => ⟨S13x64, .f32⟩
  | .hbm, ⟨4, _⟩ => ⟨S64, .f32⟩
  | .hbm, ⟨5, _⟩ => ⟨S13x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x1, .f32⟩
  | .hbm, ⟨16, _⟩ => ⟨S1, .f32⟩
  | .hbm, ⟨17, _⟩ => ⟨S64x1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S800000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x13, .f32⟩
  | .hbm, ⟨32, _⟩ => ⟨S800000x13, .f32⟩
  | .hbm, ⟨33, _⟩ => ⟨S800000x13, .f32⟩
  | .hbm, ⟨34, _⟩ => ⟨S_, .f32⟩
  | .hbm, ⟨35, _⟩ => ⟨S50000x13, .f32⟩
  | .hbm, ⟨36, _⟩ => ⟨S800000x1, .i32⟩
  | .hbm, ⟨37, _⟩ => ⟨S50000x13, .f32⟩
  | .hbm, ⟨38, _⟩ => ⟨S1x64, .f32⟩
  | .hbm, ⟨39, _⟩ => ⟨S50000x64, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S800000x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S800000x1, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x64, .f32⟩
  | .hbm, ⟨87, _⟩ => ⟨S800000x64, .f32⟩
  | .hbm, ⟨88, _⟩ => ⟨S_, .f32⟩
  | .hbm, ⟨89, _⟩ => ⟨S50000x64, .f32⟩
  | .hbm, ⟨90, _⟩ => ⟨S800000x1, .i32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S800000x1, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x64, .f32⟩
  | .hbm, ⟨104, _⟩ => ⟨S800000x64, .f32⟩
  | .hbm, ⟨105, _⟩ => ⟨S800000x64, .f32⟩
  | .hbm, ⟨106, _⟩ => ⟨S_, .f32⟩
  | .hbm, ⟨107, _⟩ => ⟨S50000x64, .f32⟩
  | .hbm, ⟨108, _⟩ => ⟨S800000x1, .i32⟩
  | .hbm, ⟨109, _⟩ => ⟨S50000x64, .f32⟩
  | .hbm, ⟨110, _⟩ => ⟨S1x1, .f32⟩
  | .hbm, ⟨111, _⟩ => ⟨S50000x1, .f32⟩
  | .local _ .vmem, ⟨0, _⟩ => ⟨S10000x13, .f32⟩
  | .local _ .vmem, ⟨1, _⟩ => ⟨S10000x13, .f32⟩
  | .local _ .vmem, ⟨2, _⟩ => ⟨S10000x13, .f32⟩
  | .local _ .vmem, ⟨3, _⟩ => ⟨S10000x13, .f32⟩
  | .local _ .vmem, ⟨4, _⟩ => ⟨S13x64, .f32⟩
  | .local _ .vmem, ⟨5, _⟩ => ⟨S1x64, .f32⟩
  | .local _ .vmem, ⟨6, _⟩ => ⟨S13x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x1, .f32⟩
  | .local _ .vmem, ⟨41, _⟩ => ⟨S1x1, .f32⟩
  | .local _ .vmem, ⟨42, _⟩ => ⟨S64x1, .f32⟩
  | .local _ .vmem, ⟨43, _⟩ => ⟨S10000x1, .f32⟩
  | .local _ .vmem, ⟨44, _⟩ => ⟨S10000x1, .f32⟩
  | _, _ => ⟨S50000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_7 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x13_0_1 : S800000x1.BroadcastsInDim S800000x13 (![0, 1] : Fin 2 → Fin S800000x13.rank)
  bcast_S_S50000x13 : S_.BroadcastsInDim S50000x13 (![] : Fin 0 → Fin S50000x13.rank)
  shapeCasts_S64_S1x64 : S64.ShapeCasts S1x64
  inb_S10000x13_S10000x13_0_0 : ∀ a, (![0, 0] : Fin 2 → Nat) a + S10000x13.size a ≤ S10000x13.size a
  h_S10000x13 : 0 < S10000x13.numel
  bitsLt_bf16_f32 : FTy.bits .bf16 < FTy.bits .f32
  shapeCasts_S10000x13_S10000x13 : S10000x13.ShapeCasts S10000x13
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S50000x13_S800000x1_S800000x13_1_0_n_n_0_1_113_wf : GatherDims.WF S50000x13 S800000x1 S800000x13 [1] [0] [] [0] [] 1 ![1, 13]
  scatter_S50000x13_S800000x1_S800000x13_1_0_0_1_wf : ScatterDims.WF S50000x13 S800000x1 S800000x13 [1] [0] [0] 1
  dot_S10000x13_S13x64_S10000x64_1_0_0_1_n_n_wf : DotDims.WF S10000x13 S13x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S50000x13.size a
  hwx0_0 : ∀ i : grid0.Coords, EltTy.bits .f32 = 32 ∨ (Rect.block (s := S50000x13) S10000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x13.size a ≤ S50000x13.size a
  hwx0_1 : ∀ i : grid0.Coords, EltTy.bits .f32 = 32 ∨ (Rect.block (s := S50000x13) S10000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x64.size a ≤ S13x64.size a
  hwx0_2 : ∀ i : grid0.Coords, EltTy.bits .f32 = 32 ∨ (Rect.block (s := S13x64) S13x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x64.size a ≤ S13x64.size a
  hwx0_4 : ∀ i : grid0.Coords, EltTy.bits .f32 = 32 ∨ (Rect.block (s := S13x64) S13x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S50000x1.size a
  hwx4_5 : ∀ i : grid4.Coords, EltTy.bits .f32 = 32 ∨ (Rect.block (s := S50000x1) S10000x1.size (cc4_transform_5 i) (hinb4_5 i)).WholeWords (EltTy.packing .f32)

variable [Facts₀]

def gather_S50000x13_S800000x1_S800000x13_1_0_n_n_0_1_113 : GatherDims S50000x13 S800000x1 S800000x13 where
  offsetDims := [1]
  collapsedSliceDims := [0]
  operandBatchingDims := []
  startIndicesBatchingDims := []
  startIndexMap := [0]
  indexVectorDim := 1
  sliceSizes := ![1, 13]
  wf := gather_S50000x13_S800000x1_S800000x13_1_0_n_n_0_1_113_wf
def scatter_S50000x13_S800000x1_S800000x13_1_0_0_1 : ScatterDims S50000x13 S800000x1 S800000x13 where
  updateWindowDims := [1]
  insertedWindowDims := [0]
  scatterDimsToOperandDims := [0]
  indexVectorDim := 1
  wf := scatter_S50000x13_S800000x1_S800000x13_1_0_0_1_wf
def dot_S10000x13_S13x64_S10000x64_1_0_0_1_n_n : DotDims S10000x13 S13x64 S10000x64 where
  lhsContracting := [1]
  rhsContracting := [0]
  lhsNonContracting := [0]
  rhsNonContracting := [1]
  lhsBatch := []
  rhsBatch := []
  wf := dot_S10000x13_S13x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S13x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S13x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x13 : Shape := ⟨2, ![50000, 13]⟩
abbrev S2x800000 : Shape := ⟨2, ![2, 800000]⟩
abbrev S800000 : Shape := ⟨1, ![800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000x1 : Shape := ⟨2, ![800000, 1]⟩
abbrev S_ : Shape := ⟨0, ![]⟩
abbrev S800000x13 : Shape := ⟨2, ![800000, 13]⟩
abbrev S50000x64 : Shape := ⟨2, ![50000, 64]⟩
abbrev S1x64 : Shape := ⟨2, ![1, 64]⟩
abbrev S800000x64 : Shape := ⟨2, ![800000, 64]⟩
abbrev S50000x1 : Shape := ⟨2, ![50000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S50000x13, .f32⟩
  | 1 => ⟨S2x800000, .i32⟩
  | 2 => ⟨S800000, .f32⟩
  | 3 => ⟨S13x64, .f32⟩
  | 4 => ⟨S64, .f32⟩
  | 5 => ⟨S13x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x1, .f32⟩
  | 16 => ⟨S1, .f32⟩
  | 17 => ⟨S64x1, .f32⟩
  | 18 => ⟨S1x800000, .i32⟩
  | 19 => ⟨S800000, .i32⟩
  | 20 => ⟨S1x800000, .i32⟩
  | 21 => ⟨S800000, .i32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x13, .f32⟩
  | 32 => ⟨S800000x13, .f32⟩
  | 33 => ⟨S800000x13, .f32⟩
  | 34 => ⟨S_, .f32⟩
  | 35 => ⟨S50000x13, .f32⟩
  | 36 => ⟨S800000x1, .i32⟩
  | 37 => ⟨S50000x13, .f32⟩
  | 38 => ⟨S50000x64, .f32⟩
  | 39 => ⟨S1x64, .f32⟩
  | 40 => ⟨S50000x64, .f32⟩
  | 41 => ⟨S50000x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S800000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S800000x1, .f32⟩
  | 123 => ⟨S_, .i32⟩
  | 124 => ⟨S800000, .i32⟩
  | 125 => ⟨S800000, .i1⟩
  | 126 => ⟨S_, .i32⟩
  | 127 => ⟨S800000, .i32⟩
  | _ => ⟨S50000x13, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000x1, .f32⟩
  | 11 => ⟨S1x1, .f32⟩
  | 12 => ⟨S50000x1, .f32⟩
  | 13 => ⟨S50000x1, .f32⟩
  | 14 => ⟨S50000x1, .f32⟩
  | 15 => ⟨S50000x1, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S_, .f32⟩
  | 22 => ⟨S50000x1, .f32⟩
  | 23 => ⟨S50000x1, .f32⟩
  | _ => ⟨S50000x13, .f32⟩

abbrev hbmTy (i : Nat) : BufTy := match i / 128 with
  | 0 => hbmTy0_0 i
  | 1 => hbmTy0_1 i
  | _ => ⟨S50000x13, .f32⟩

abbrev bufTy : (tb : Table) → Fin (tcTables nBuf tb) → BufTy
  | .hbm, ⟨i, _⟩ => hbmTy i
  | _, _ => ⟨S50000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_cst : Ref sig .tc := ⟨.hbm, 69, rfl⟩
abbrev main_call1_v0 : Ref sig .tc := ⟨.hbm, 70, rfl⟩
abbrev main_v43 : Ref sig .tc := ⟨.hbm, 71, rfl⟩
abbrev main_v44 : Ref sig .tc := ⟨.hbm, 72, rfl⟩
abbrev main_c_4 : Ref sig .tc := ⟨.hbm, 73, rfl⟩
abbrev main_v45 : Ref sig .tc := ⟨.hbm, 74, rfl⟩
abbrev main_v46 : Ref sig .tc := ⟨.hbm, 75, rfl⟩
abbrev main_c_5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_cst : Ref sig .tc := ⟨.hbm, 94, rfl⟩
abbrev main_call2_v0 : Ref sig .tc := ⟨.hbm, 95, rfl⟩
abbrev main_v63 : Ref sig .tc := ⟨.hbm, 96, rfl⟩
abbrev main_v64 : Ref sig .tc := ⟨.hbm, 97, rfl⟩
abbrev main_c_7 : Ref sig .tc := ⟨.hbm, 98, rfl⟩
abbrev main_v65 : Ref sig .tc := ⟨.hbm, 99, rfl⟩
abbrev main_v66 : Ref sig .tc := ⟨.hbm, 100, rfl⟩
abbrev main_c_8 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_9 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_v84 : Ref sig .tc := ⟨.hbm, 122, rfl⟩
abbrev main_c_10 : Ref sig .tc := ⟨.hbm, 123, rfl⟩
abbrev main_v85 : Ref sig .tc := ⟨.hbm, 124, rfl⟩
abbrev main_v86 : Ref sig .tc := ⟨.hbm, 125, rfl⟩
abbrev main_c_11 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_12 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_13 : Ref sig .tc := ⟨.hbm, 146, rfl⟩
abbrev main_v105 : Ref sig .tc := ⟨.hbm, 147, rfl⟩
abbrev main_v106 : Ref sig .tc := ⟨.hbm, 148, rfl⟩
abbrev main_cst_14 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x13_0_1 : S800000x1.BroadcastsInDim S800000x13 (![0, 1] : Fin 2 → Fin S800000x13.rank)
  bcast_S_S50000x13 : S_.BroadcastsInDim S50000x13 (![] : Fin 0 → Fin S50000x13.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x13_S800000x1_S800000x13_1_0_n_n_0_1_113_wf : GatherDims.WF S50000x13 S800000x1 S800000x13 [1] [0] [] [0] [] 1 ![1, 13]
  scatter_S50000x13_S800000x1_S800000x13_1_0_0_1_wf : ScatterDims.WF S50000x13 S800000x1 S800000x13 [1] [0] [0] 1
  dot_S50000x13_S13x64_S50000x64_1_0_0_1_n_n_wf : DotDims.WF S50000x13 S13x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x13_S800000x1_S800000x13_1_0_n_n_0_1_113 : GatherDims S50000x13 S800000x1 S800000x13 where
  offsetDims := [1]
  collapsedSliceDims := [0]
  operandBatchingDims := []
  startIndicesBatchingDims := []
  startIndexMap := [0]
  indexVectorDim := 1
  sliceSizes := ![1, 13]
  wf := gather_S50000x13_S800000x1_S800000x13_1_0_n_n_0_1_113_wf
def scatter_S50000x13_S800000x1_S800000x13_1_0_0_1 : ScatterDims S50000x13 S800000x1 S800000x13 where
  updateWindowDims := [1]
  insertedWindowDims := [0]
  scatterDimsToOperandDims := [0]
  indexVectorDim := 1
  wf := scatter_S50000x13_S800000x1_S800000x13_1_0_0_1_wf
def dot_S50000x13_S13x64_S50000x64_1_0_0_1_n_n : DotDims S50000x13 S13x64 S50000x64 where
  lhsContracting := [1]
  rhsContracting := [0]
  lhsNonContracting := [0]
  rhsNonContracting := [1]
  lhsBatch := []
  rhsBatch := []
  wf := dot_S50000x13_S13x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run with its result named.

  The program is five launches of a dense-layer kernel among stretches of host operations. The buffer contents at
  the boundaries between them form a fold from the launch memory: a host stretch rewrites the buffers its operations
  write, a launch rewrites its output array with what its write-backs leave. Every weakly fair execution terminates
  with each unscoped buffer at the last stage of that fold; here the post of that run keeps, beside the unchanged
  arguments, the result buffer at the fold's last stage. The value of that stage is computed elsewhere.
-/
import proofs.«124320_j8589935220_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last stage of the fold of buffer contents and every argument as launched. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.ResultRun

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.Payloads.lean ====
/-
  What each dense-layer body stores, read at one entry of its block, on the extended reals.

  A body loads a block of node rows `x`, the block of aggregated neighbour rows `a`, two weight matrices and a bias
  row, and stores  act( (a · Wrel + x · Wroot) + b )  where act is the rectifier (layers 0 to 3) or the logistic
  function (layer 4). The operands pass through a narrower float format on the way into the products, which changes
  nothing at the exact values; each product is accumulated into the zero splat, so its entry (r, j) is the
  row-by-column sum; the bias row is broadcast down the rows of the block.
-/
import proofs.«124320_j8589935220_1_alg».proof.Proof.Gen.KernelIdeal.Skeleton
import proofs.«124320_j8589935220_1_alg».proof.Proof.LibDense
import proofs.«124320_j8589935220_1_alg».proof.Proof.LibBiasRows
import Idealize.ShloMosaic.Lib.ValueIdx
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-- A bias row `[1, d]` read as the vector `[d]` of its entries. -/
def rowVec {d : ℕ} (b : (⟨2, ![1, d]⟩ : Shape).Idx → EReal) : (⟨1, ![d]⟩ : Shape).Idx → EReal :=
  fun q => b (ix2 ⟨0, Nat.one_pos⟩ (q 0))

/-- The printed dimension records are the plain rows-by-columns contraction. -/
theorem dims_13_64 : dot_S10000x13_S13x64_S10000x64_1_0_0_1_n_n = DotDims.plain 10000 13 64 := rfl
theorem dims_64_64 : dot_S10000x64_S64x64_S10000x64_1_0_0_1_n_n = DotDims.plain 10000 64 64 := rfl
theorem dims_64_1 : dot_S10000x64_S64x1_S10000x1_1_0_0_1_n_n = DotDims.plain 10000 64 1 := rfl

/-- Layer 0's stored value at entry `j` of the block: the rectified affine map of the loaded blocks. -/
theorem pay0_apply (x a : Vec Ideal S10000x13 .f32) (wl wr : Vec Ideal S13x64 .f32) (b : Vec Ideal S1x64 .f32)
    (j : S10000x64.Idx) :
    k0_pay1 (F := Ideal) x a wl wr b j = Cert.LibDense.relu a x wl wr (rowVec b) j := by
  unfold k0_pay1
  show max ((FloatOps.matmul (F := Ideal) dot_S10000x13_S13x64_S10000x64_1_0_0_1_n_n none
          (shapeCast S10000x13 a shapeCasts_S10000x13_S10000x13) wl (constant (F := Ideal) S10000x64 .f32 0x00000000#32) j
        + FloatOps.matmul (F := Ideal) dot_S10000x13_S13x64_S10000x64_1_0_0_1_n_n none x wr (constant (F := Ideal) S10000x64 .f32 0x00000000#32) j)
        + broadcastTo S10000x64 (shapeCast S1x64 b shapeCasts_S1x64_S1x64) broadcasts_S1x64_S10000x64 j)
      (Ideal.ofBits .f32 0x00000000#32) = _
  rw [shapeCast_self, shapeCast_self, dims_13_64, Cert.LibDense.matmul_plain, Cert.LibDense.matmul_plain,
    Cert.LibBiasRows.row_broadcast]
  rfl

/-! Layers 1, 2 and 3 have one and the same body. -/

theorem pay1_apply (x a : Vec Ideal S10000x64 .f32) (wl wr : Vec Ideal S64x64 .f32) (b : Vec Ideal S1x64 .f32)
    (j : S10000x64.Idx) :
    k1_pay1 (F := Ideal) x a wl wr b j = Cert.LibDense.relu a x wl wr (rowVec b) j := by
  unfold k1_pay1
  show max ((FloatOps.matmul (F := Ideal) dot_S10000x64_S64x64_S10000x64_1_0_0_1_n_n none
          (shapeCast S10000x64 a shapeCasts_S10000x64_S10000x64) wl (constant (F := Ideal) S10000x64 .f32 0x00000000#32) j
        + FloatOps.matmul (F := Ideal) dot_S10000x64_S64x64_S10000x64_1_0_0_1_n_n none
          (shapeCast S10000x64 x shapeCasts_S10000x64_S10000x64) wr (constant (F := Ideal) S10000x64 .f32 0x00000000#32) j)
        + broadcastTo S10000x64 (shapeCast S1x64 b shapeCasts_S1x64_S1x64) broadcasts_S1x64_S10000x64 j)
      (Ideal.ofBits .f32 0x00000000#32) = _
  rw [shapeCast_self, shapeCast_self, shapeCast_self, dims_64_64, Cert.LibDense.matmul_plain, Cert.LibDense.matmul_plain,
    Cert.LibBiasRows.row_broadcast]
  rfl

theorem pay2_apply (x a : Vec Ideal S10000x64 .f32) (wl wr : Vec Ideal S64x64 .f32) (b : Vec Ideal S1x64 .f32)
    (j : S10000x64.Idx) :
    k2_pay1 (F := Ideal) x a wl wr b j = Cert.LibDense.relu a x wl wr (rowVec b) j := by
  unfold k2_pay1
  show max ((FloatOps.matmul (F := Ideal) dot_S10000x64_S64x64_S10000x64_1_0_0_1_n_n none
          (shapeCast S10000x64 a shapeCasts_S10000x64_S10000x64) wl (constant (F := Ideal) S10000x64 .f32 0x00000000#32) j
        + FloatOps.matmul (F := Ideal) dot_S10000x64_S64x64_S10000x64_1_0_0_1_n_n none
          (shapeCast S10000x64 x shapeCasts_S10000x64_S10000x64) wr (constant (F := Ideal) S10000x64 .f32 0x00000000#32) j)
        + broadcastTo S10000x64 (shapeCast S1x64 b shapeCasts_S1x64_S1x64) broadcasts_S1x64_S10000x64 j)
      (Ideal.ofBits .f32 0x00000000#32) = _
  rw [shapeCast_self, shapeCast_self, shapeCast_self, dims_64_64, Cert.LibDense.matmul_plain, Cert.LibDense.matmul_plain,
    Cert.LibBiasRows.row_broadcast]
  rfl

theorem pay3_apply (x a : Vec Ideal S10000x64 .f32) (wl wr : Vec Ideal S64x64 .f32) (b : Vec Ideal S1x64 .f32)
    (j : S10000x64.Idx) :
    k3_pay1 (F := Ideal) x a wl wr b j = Cert.LibDense.relu a x wl wr (rowVec b) j := by
  unfold k3_pay1
  show max ((FloatOps.matmul (F := Ideal) dot_S10000x64_S64x64_S10000x64_1_0_0_1_n_n none
          (shapeCast S10000x64 a shapeCasts_S10000x64_S10000x64) wl (constant (F := Ideal) S10000x64 .f32 0x00000000#32) j
        + FloatOps.matmul (F := Ideal) dot_S10000x64_S64x64_S10000x64_1_0_0_1_n_n none
          (shapeCast S10000x64 x shapeCasts_S10000x64_S10000x64) wr (constant (F := Ideal) S10000x64 .f32 0x00000000#32) j)
        + broadcastTo S10000x64 (shapeCast S1x64 b shapeCasts_S1x64_S1x64) broadcasts_S1x64_S10000x64 j)
      (Ideal.ofBits .f32 0x00000000#32) = _
  rw [shapeCast_self, shapeCast_self, shapeCast_self, dims_64_64, Cert.LibDense.matmul_plain, Cert.LibDense.matmul_plain,
    Cert.LibBiasRows.row_broadcast]
  rfl

/-- Layer 4's stored value at entry `j`: the logistic function of the affine map of the loaded blocks. -/
theorem pay4_apply (x a : Vec Ideal S10000x64 .f32) (wl wr : Vec Ideal S64x1 .f32) (b : Vec Ideal S1x1 .f32)
    (j : S10000x1.Idx) :
    k4_pay1 (F := Ideal) x a wl wr b j = Ideal.logistic (Cert.LibDense.affine a x wl wr (rowVec b) j) := by
  unfold k4_pay1
  show Ideal.logistic ((FloatOps.matmul (F := Ideal) dot_S10000x64_S64x1_S10000x1_1_0_0_1_n_n none
          (shapeCast S10000x64 a shapeCasts_S10000x64_S10000x64) wl (constant (F := Ideal) S10000x1 .f32 0x00000000#32) j
        + FloatOps.matmul (F := Ideal) dot_S10000x64_S64x1_S10000x1_1_0_0_1_n_n none
          (shapeCast S10000x64 x shapeCasts_S10000x64_S10000x64) wr (constant (F := Ideal) S10000x1 .f32 0x00000000#32) j)
        + broadcastTo S10000x1 (shapeCast S1x1 b shapeCasts_S1x1_S1x1) broadcasts_S1x1_S10000x1 j) = _
  rw [shapeCast_self, shapeCast_self, shapeCast_self, dims_64_1, Cert.LibDense.matmul_plain, Cert.LibDense.matmul_plain,
    Cert.LibBiasRows.row_broadcast]
  rfl

end Cert.KernelIdeal.Payloads

end
-- ==== Proof.KLayer0.lean ====
/-
  Launch 0 of the dense-layer kernel: the whole output array as one function of the arrays the launch finds.

  The grid has five points; point t stages rows 10000·t … 10000·t + 9999 of the node rows and of the aggregated rows,
  the whole of both weight matrices and of the bias row, and writes back the same rows of the output. What a point
  writes back is therefore the restriction to its rows of ONE function of the whole arrays — the rectified affine map max((a · Wrel + x · Wroot) + b, 0) —
  because an entry of that map reads only its own row of the two row operands. The five blocks cover the 50000 rows,
  so the array ends holding that function.
-/
import proofs.«124320_j8589935220_1_alg».proof.Proof.Gen.KernelIdeal.Frame
import proofs.«124320_j8589935220_1_alg».proof.Proof.Payloads
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen Cert.KernelIdeal.Payloads

variable (V : (c : Dev nD) → (b : Ref sig .tc) → Buf (Elt Ideal) ((c : Thread nD τ).loc b))

theorem zero_offsets : (![0, 0] : Fin 2 → Nat) = fun _ => 0 := funext fun a => by fin_cases a <;> rfl

/-- The whole output array: the rectified affine map max((a · Wrel + x · Wroot) + b, 0) of the arrays the launch finds. -/
def whole (c : Dev nD) : S50000x64.Idx → EReal :=
  fun i => Cert.LibDense.relu (V c main_v16) (V c main_arg0) (V c main_arg3) (V c main_arg5) (rowVec (V c main_v17)) i

/-- The printed index maps over the grid: the row operands and the output move together along the rows, everything
    else stays at block 0. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every block of rows is some point's. -/
theorem index_onto : ∀ q : Fin 5, ∃ t : Fin cfg0.N, win0_5.index t = ![q.val, 0] :=
  (by decide +kernel : ∀ q : Fin 5, ∃ t : Fin grid0.N, win0_5.index t = ![q.val, 0])

/-- What point `t` writes back is block `t` of the whole-array function. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zero_offsets]
  simp only [View.ld_unit_zero (S := S10000x13) zero_offsets, View.ld_unit_zero (S := S13x64) zero_offsets,
    View.ld_unit_zero (S := S1x64) zero_offsets]
  obtain ⟨e0, e1, e2, e3, e4, e5, e6, e7, e8, e9, e10⟩ := index_facts t
  funext j
  show k0_pay1 (F := Ideal) (iblk0 V c 0 t) (iblk0 V c 1 t) (iblk0 V c 2 t) (iblk0 V c 4 t) (iblk0 V c 3 t) j
    = whole V c (((cfg0.win 5).blk t).view.emb j)
  refine (pay0_apply (iblk0 V c 0 t) (iblk0 V c 1 t) (iblk0 V c 2 t) (iblk0 V c 4 t) (iblk0 V c 3 t) j).trans ?_
  unfold whole
  refine Cert.LibDense.relu_congr (iblk0 V c 1 t) (iblk0 V c 0 t) (V c main_v16) (V c main_arg0)
    (iblk0 V c 2 t) (iblk0 V c 4 t) (V c main_arg3) (V c main_arg5) (rowVec (iblk0 V c 3 t)) (rowVec (V c main_v17))
    j (((cfg0.win 5).blk t).view.emb j) (fun k => ?_) (fun k => ?_) (fun k => ?_) (fun k => ?_) ?_
  · show V c main_v16 (((cfg0.win 1).blk t).view.emb (ix2 (j 0) k)) = _
    refine congrArg (V c main_v16) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 13 + 1 * k.val = k.val; omega
  · show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 13 + 1 * k.val = k.val; omega
  · show V c main_arg3 (((cfg0.win 2).blk t).view.emb (ix2 k (j 1))) = _
    refine congrArg (V c main_arg3) (funext fun a => Fin.ext ?_)
    match a with
    | ⟨0, _⟩ => show win0_2.index t (0 : Fin 2) * 13 + 1 * k.val = k.val; omega
    | ⟨1, _⟩ => show win0_2.index t (1 : Fin 2) * 64 + 1 * (j 1).val = win0_5.index t (1 : Fin 2) * 64 + 1 * (j 1).val; omega
  · show V c main_arg5 (((cfg0.win 4).blk t).view.emb (ix2 k (j 1))) = _
    refine congrArg (V c main_arg5) (funext fun a => Fin.ext ?_)
    match a with
    | ⟨0, _⟩ => show win0_4.index t (0 : Fin 2) * 13 + 1 * k.val = k.val; omega
    | ⟨1, _⟩ => show win0_4.index t (1 : Fin 2) * 64 + 1 * (j 1).val = win0_5.index t (1 : Fin 2) * 64 + 1 * (j 1).val; omega
  · show V c main_v17 (((cfg0.win 3).blk t).view.emb (ix2 ⟨0, Nat.one_pos⟩ (j 1))) = _
    refine congrArg (V c main_v17) (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_5.index t (1 : Fin 2) * 64 + 1 * (j 1).val; omega

/-- An index of the output array is in point `t`'s block iff each coordinate is in the block's range on its axis. -/
theorem mem_block (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v18).slice (win0_5.rect t)).set ↔ _
  rw [View.set_slice_whole, Rect.mem_set_unit]
  exact Iff.rfl

/-- The five blocks of rows cover the output array. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The output array after the launch. -/
theorem final (c : Dev nD) : (dat0 V c).arrAt 5 cfg0.N = whole V c :=
  (dat0 V c).arrAt_eq_of_cover 5 (whole V c) (fun t _ => flushed_eq V c t) (covered)

end Cert.KernelIdeal.Layer0

end
-- ==== Proof.KLayer1.lean ====
/-
  Launch 1 of the dense-layer kernel: the whole output array as one function of the arrays the launch finds.

  The grid has five points; point t stages rows 10000·t … 10000·t + 9999 of the node rows and of the aggregated rows,
  the whole of both weight matrices and of the bias row, and writes back the same rows of the output. What a point
  writes back is therefore the restriction to its rows of ONE function of the whole arrays — the rectified affine map max((a · Wrel + x · Wroot) + b, 0) —
  because an entry of that map reads only its own row of the two row operands. The five blocks cover the 50000 rows,
  so the array ends holding that function.
-/
import proofs.«124320_j8589935220_1_alg».proof.Proof.Gen.KernelIdeal.Frame
import proofs.«124320_j8589935220_1_alg».proof.Proof.Payloads
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.KernelIdeal.Payloads

variable (V : (c : Dev nD) → (b : Ref sig .tc) → Buf (Elt Ideal) ((c : Thread nD τ).loc b))

theorem zero_offsets : (![0, 0] : Fin 2 → Nat) = fun _ => 0 := funext fun a => by fin_cases a <;> rfl

/-- The whole output array: the rectified affine map max((a · Wrel + x · Wroot) + b, 0) of the arrays the launch finds. -/
def whole (c : Dev nD) : S50000x64.Idx → EReal :=
  fun i => Cert.LibDense.relu (V c main_v31) (V c main_v18) (V c main_arg6) (V c main_arg8) (rowVec (V c main_v32)) i

/-- The printed index maps over the grid: the row operands and the output move together along the rows, everything
    else stays at block 0. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every block of rows is some point's. -/
theorem index_onto : ∀ q : Fin 5, ∃ t : Fin cfg1.N, win1_5.index t = ![q.val, 0] :=
  (by decide +kernel : ∀ q : Fin 5, ∃ t : Fin grid1.N, win1_5.index t = ![q.val, 0])

/-- What point `t` writes back is block `t` of the whole-array function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets,
    View.ld_unit_zero (S := S1x64) zero_offsets]
  obtain ⟨e0, e1, e2, e3, e4, e5, e6, e7, e8, e9, e10⟩ := index_facts t
  funext j
  show k1_pay1 (F := Ideal) (iblk1 V c 0 t) (iblk1 V c 1 t) (iblk1 V c 2 t) (iblk1 V c 4 t) (iblk1 V c 3 t) j
    = whole V c (((cfg1.win 5).blk t).view.emb j)
  refine (pay1_apply (iblk1 V c 0 t) (iblk1 V c 1 t) (iblk1 V c 2 t) (iblk1 V c 4 t) (iblk1 V c 3 t) j).trans ?_
  unfold whole
  refine Cert.LibDense.relu_congr (iblk1 V c 1 t) (iblk1 V c 0 t) (V c main_v31) (V c main_v18)
    (iblk1 V c 2 t) (iblk1 V c 4 t) (V c main_arg6) (V c main_arg8) (rowVec (iblk1 V c 3 t)) (rowVec (V c main_v32))
    j (((cfg1.win 5).blk t).view.emb j) (fun k => ?_) (fun k => ?_) (fun k => ?_) (fun k => ?_) ?_
  · show V c main_v31 (((cfg1.win 1).blk t).view.emb (ix2 (j 0) k)) = _
    refine congrArg (V c main_v31) (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 64 + 1 * k.val = k.val; omega
  · show V c main_v18 (((cfg1.win 0).blk t).view.emb (ix2 (j 0) k)) = _
    refine congrArg (V c main_v18) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * k.val = k.val; omega
  · show V c main_arg6 (((cfg1.win 2).blk t).view.emb (ix2 k (j 1))) = _
    refine congrArg (V c main_arg6) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_5.index t (1 : Fin 2) * 64 + 1 * (j 1).val; omega
  · show V c main_arg8 (((cfg1.win 4).blk t).view.emb (ix2 k (j 1))) = _
    refine congrArg (V c main_arg8) (funext fun a => Fin.ext ?_)
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  · show V c main_v32 (((cfg1.win 3).blk t).view.emb (ix2 ⟨0, Nat.one_pos⟩ (j 1))) = _
    refine congrArg (V c main_v32) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_5.index t (1 : Fin 2) * 64 + 1 * (j 1).val; omega

/-- An index of the output array is in point `t`'s block iff each coordinate is in the block's range on its axis. -/
theorem mem_block (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v33).slice (win1_5.rect t)).set ↔ _
  rw [View.set_slice_whole, Rect.mem_set_unit]
  exact Iff.rfl

/-- The five blocks of rows cover the output array. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := index_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the launch. -/
theorem final (c : Dev nD) : (dat1 V c).arrAt 5 cfg1.N = whole V c :=
  (dat1 V c).arrAt_eq_of_cover 5 (whole V c) (fun t _ => flushed_eq V c t) (covered)

end Cert.KernelIdeal.Layer1

end
-- ==== Proof.KLayer2.lean ====
/-
  Launch 2 of the dense-layer kernel: the whole output array as one function of the arrays the launch finds.

  The grid has five points; point t stages rows 10000·t … 10000·t + 9999 of the node rows and of the aggregated rows,
  the whole of both weight matrices and of the bias row, and writes back the same rows of the output. What a point
  writes back is therefore the restriction to its rows of ONE function of the whole arrays — the rectified affine map max((a · Wrel + x · Wroot) + b, 0) —
  because an entry of that map reads only its own row of the two row operands. The five blocks cover the 50000 rows,
  so the array ends holding that function.
-/
import proofs.«124320_j8589935220_1_alg».proof.Proof.Gen.KernelIdeal.Frame
import proofs.«124320_j8589935220_1_alg».proof.Proof.Payloads
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.KernelIdeal.Payloads

variable (V : (c : Dev nD) → (b : Ref sig .tc) → Buf (Elt Ideal) ((c : Thread nD τ).loc b))

theorem zero_offsets : (![0, 0] : Fin 2 → Nat) = fun _ => 0 := funext fun a => by fin_cases a <;> rfl

/-- The whole output array: the rectified affine map max((a · Wrel + x · Wroot) + b, 0) of the arrays the launch finds. -/
def whole (c : Dev nD) : S50000x64.Idx → EReal :=
  fun i => Cert.LibDense.relu (V c main_v46) (V c main_v33) (V c main_arg9) (V c main_arg11) (rowVec (V c main_v47)) i

/-- The printed index maps over the grid: the row operands and the output move together along the rows, everything
    else stays at block 0. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every block of rows is some point's. -/
theorem index_onto : ∀ q : Fin 5, ∃ t : Fin cfg2.N, win2_5.index t = ![q.val, 0] :=
  (by decide +kernel : ∀ q : Fin 5, ∃ t : Fin grid2.N, win2_5.index t = ![q.val, 0])

/-- What point `t` writes back is block `t` of the whole-array function. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S64x64) zero_offsets,
    View.ld_unit_zero (S := S1x64) zero_offsets]
  obtain ⟨e0, e1, e2, e3, e4, e5, e6, e7, e8, e9, e10⟩ := index_facts t
  funext j
  show k2_pay1 (F := Ideal) (iblk2 V c 0 t) (iblk2 V c 1 t) (iblk2 V c 2 t) (iblk2 V c 4 t) (iblk2 V c 3 t) j
    = whole V c (((cfg2.win 5).blk t).view.emb j)
  refine (pay2_apply (iblk2 V c 0 t) (iblk2 V c 1 t) (iblk2 V c 2 t) (iblk2 V c 4 t) (iblk2 V c 3 t) j).trans ?_
  unfold whole
  refine Cert.LibDense.relu_congr (iblk2 V c 1 t) (iblk2 V c 0 t) (V c main_v46) (V c main_v33)
    (iblk2 V c 2 t) (iblk2 V c 4 t) (V c main_arg9) (V c main_arg11) (rowVec (iblk2 V c 3 t)) (rowVec (V c main_v47))
    j (((cfg2.win 5).blk t).view.emb j) (fun k => ?_) (fun k => ?_) (fun k => ?_) (fun k => ?_) ?_
  · show V c main_v46 (((cfg2.win 1).blk t).view.emb (ix2 (j 0) k)) = _
    refine congrArg (V c main_v46) (funext fun a => Fin.ext ?_)
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * k.val = k.val; omega
  · show V c main_v33 (((cfg2.win 0).blk t).view.emb (ix2 (j 0) k)) = _
    refine congrArg (V c main_v33) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * k.val = k.val; omega
  · show V c main_arg9 (((cfg2.win 2).blk t).view.emb (ix2 k (j 1))) = _
    refine congrArg (V c main_arg9) (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · show V c main_arg11 (((cfg2.win 4).blk t).view.emb (ix2 k (j 1))) = _
    refine congrArg (V c main_arg11) (funext fun a => Fin.ext ?_)
    match a with
    | ⟨0, _⟩ => show win2_4.index t (0 : Fin 2) * 64 + 1 * k.val = k.val; omega
    | ⟨1, _⟩ => show win2_4.index t (1 : Fin 2) * 64 + 1 * (j 1).val = win2_5.index t (1 : Fin 2) * 64 + 1 * (j 1).val; omega
  · show V c main_v47 (((cfg2.win 3).blk t).view.emb (ix2 ⟨0, Nat.one_pos⟩ (j 1))) = _
    refine congrArg (V c main_v47) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega

/-- An index of the output array is in point `t`'s block iff each coordinate is in the block's range on its axis. -/
theorem mem_block (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v48).slice (win2_5.rect t)).set ↔ _
  rw [View.set_slice_whole, Rect.mem_set_unit]
  exact Iff.rfl

/-- The five blocks of rows cover the output array. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := index_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after the launch. -/
theorem final (c : Dev nD) : (dat2 V c).arrAt 5 cfg2.N = whole V c :=
  (dat2 V c).arrAt_eq_of_cover 5 (whole V c) (fun t _ => flushed_eq V c t) (covered)

end Cert.KernelIdeal.Layer2

end
-- ==== Proof.KLayer3.lean ====
/-
  Launch 3 of the dense-layer kernel: the whole output array as one function of the arrays the launch finds.

  The grid has five points; point t stages rows 10000·t … 10000·t + 9999 of the node rows and of the aggregated rows,
  the whole of both weight matrices and of the bias row, and writes back the same rows of the output. What a point
  writes back is therefore the restriction to its rows of ONE function of the whole arrays — the rectified affine map max((a · Wrel + x · Wroot) + b, 0) —
  because an entry of that map reads only its own row of the two row operands. The five blocks cover the 50000 rows,
  so the array ends holding that function.
-/
import proofs.«124320_j8589935220_1_alg».proof.Proof.Gen.KernelIdeal.Frame
import proofs.«124320_j8589935220_1_alg».proof.Proof.Payloads
import Idealize.ShloMosaic.Lib.Pipeline.Value
import Idealize.ShloMosaic.Lib.ValueIdx

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen Cert.KernelIdeal.Payloads

variable (V : (c : Dev nD) → (b : Ref sig .tc) → Buf (Elt Ideal) ((c : Thread nD τ).loc b))

theorem zero_offsets : (![0, 0] : Fin 2 → Nat) = fun _ => 0 := funext fun a => by fin_cases a <;> rfl

/-- The whole output array: the rectified affine map max((a · Wrel + x · Wroot) + b, 0) of the arrays the launch finds. -/
def whole (c : Dev nD) : S50000x64.Idx → EReal :=
  fun i => Cert.LibDense.relu (V c main_v61) (V c main_v48) (V c main_arg12) (V c main_arg14) (rowVec (V c main_v62)) i

/-- The printed index maps over the grid: the row operands and the output move together along the rows, everything
    else stays at block 0. -/
theorem index_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 :=
  (by decide +kernel : ∀ t : Fin grid3.N, _)

/-- Every block of rows is some point's. -/
theorem index_onto : ∀ q : Fin 5, ∃ t : Fin cfg3.N, win3_5.index t = ![q.val, 0] :=
  (by decide +kernel : ∀ q : Fin 5, ∃ t : Fin grid3.N, win3_5.index t = ![q.val, 0])

/-- What point `t` writes back is block `t` of the whole-array function. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero zero_offsets]
  simp only [View.ld_unit_zero (S := S10000x64) zero_offsets, View.ld_unit_zero (S := S64x64) zero_offsets,
    View.ld_unit_zero (S := S1x64) zero_offsets]
  obtain ⟨e0, e1, e2, e3, e4, e5, e6, e7, e8, e9, e10⟩ := index_facts t
  funext j
  show k3_pay1 (F := Ideal) (iblk3 V c 0 t) (iblk3 V c 1 t) (iblk3 V c 2 t) (iblk3 V c 4 t) (iblk3 V c 3 t) j
    = whole V c (((cfg3.win 5).blk t).view.emb j)
  refine (pay3_apply (iblk3 V c 0 t) (iblk3 V c 1 t) (iblk3 V c 2 t) (iblk3 V c 4 t) (iblk3 V c 3 t) j).trans ?_
  unfold whole
  refine Cert.LibDense.relu_congr (iblk3 V c 1 t) (iblk3 V c 0 t) (V c main_v61) (V c main_v48)
    (iblk3 V c 2 t) (iblk3 V c 4 t) (V c main_arg12) (V c main_arg14) (rowVec (iblk3 V c 3 t)) (rowVec (V c main_v62))
    j (((cfg3.win 5).blk t).view.emb j) (fun k => ?_) (fun k => ?_) (fun k => ?_) (fun k => ?_) ?_
  · show V c main_v61 (((cfg3.win 1).blk t).view.emb (ix2 (j 0) k)) = _
    refine congrArg (V c main_v61) (funext fun a => Fin.ext ?_)
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 64 + 1 * k.val = k.val; omega
  · show V c main_v48 (((cfg3.win 0).blk t).view.emb (ix2 (j 0) k)) = _
    refine congrArg (V c main_v48) (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * k.val = k.val; omega
  · show V c main_arg12 (((cfg3.win 2).blk t).view.emb (ix2 k (j 1))) = _
    refine congrArg (V c main_arg12) (funext fun a => Fin.ext ?_)
    match a with
    | ⟨0, _⟩ => show win3_2.index t (0 : Fin 2) * 64 + 1 * k.val = k.val; omega
    | ⟨1, _⟩ => show win3_2.index t (1 : Fin 2) * 64 + 1 * (j 1).val = win3_5.index t (1 : Fin 2) * 64 + 1 * (j 1).val; omega
  · show V c main_arg14 (((cfg3.win 4).blk t).view.emb (ix2 k (j 1))) = _
    refine congrArg (V c main_arg14) (funext fun a => Fin.ext ?_)
    match a with
    | ⟨0, _⟩ => show win3_4.index t (0 : Fin 2) * 64 + 1 * k.val = k.val; omega
    | ⟨1, _⟩ => show win3_4.index t (1 : Fin 2) * 64 + 1 * (j 1).val = win3_5.index t (1 : Fin 2) * 64 + 1 * (j 1).val; omega
  · show V c main_v62 (((cfg3.win 3).blk t).view.emb (ix2 ⟨0, Nat.one_pos⟩ (j 1))) = _
    refine congrArg (V c main_v62) (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega

/-- An index of the output array is in point `t`'s block iff each coordinate is in the block's range on its axis. -/
theorem mem_block (t : Fin cfg3.N) (i : S50000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v63).slice (win3_5.rect t)).set ↔ _
  rw [View.set_slice_whole, Rect.mem_set_unit]
  exact Iff.rfl

/-- The five blocks of rows cover the output array. -/
theorem covered (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := index_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_block]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The output array after the launch. -/
theorem final (c : Dev nD) : (dat3 V c).arrAt 5 cfg3.N = whole V c :=
  (dat3 V c).arrAt_eq_of_cover 5 (whole V c) (fun t _ => flushed_eq V c t) (covered)

end Cert.KernelIdeal.Layer3

end
-- ==== Proof.KLayer4.lean ====
/-
  Launch 4 of the dense-layer kernel: the whole output array as one function of the arrays the launch finds.

  The grid has five points; point t stages rows 10000·t … 10000·t + 9999 of the node rows and of the aggregated rows,
  the whole of both weight matrices and of the bias row, and writes back the same rows of the output. What a point
  writes back is therefore the restriction to its rows of ONE function of the whole arrays — the logistic function of the affine map (a · Wrel + x · Wroot) + b —
  because an entry of that map reads only its own row of the two row operands. The five blocks cover the 50000 rows,
  so the array ends holding that function.
-/
import proofs.«124320_j8589935220_1_alg».proof.Proof.Gen.KernelIdeal.Frame
import proofs.«124320_j8589935220_1_alg».proof.Proof.Payloads
import Idealize.ShloMosaic.Lib.Pipeline.Value
import Idealize.ShloMosaic.Lib.ValueIdx

set_option maxRecDepth 16384

noncomputable section

namespace Cert.KernelIdeal.Layer4

open Idealize.ShloMosaic Idealize.ShloMosaic.TcCoe Idealize.ShloMosaic.ValueIdx Idealize.SL.Sem
open Cert.KernelIdeal Cert.KernelIdeal.Gen Cert.KernelIdeal.Payloads

variable (V : (c : Dev nD) → (b : Ref sig .tc) → Buf (Elt Ideal) ((c : Thread nD τ).loc b))

theorem zero_offsets : (![0, 0] : Fin 2 → Nat) = fun _ => 0 := funext fun a => by fin_cases a <;> rfl

/-- The whole output array: the logistic function of the affine map (a · Wrel + x · Wroot) + b of the arrays the launch finds. -/
def whole (c : Dev nD) : S50000x1.Idx → EReal :=
  fun i => Ideal.logistic (Cert.LibDense.affine (V c main_v76) (V c main_v63) (V c main_arg15) (V c main_arg17) (rowVec (V c main_v77)) i)

/-- The printed index maps over the grid: the row operands and the output move together along the rows, everything
    else stays at block 0. -/
theorem index_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 :=
  (by decide +kernel : ∀ t : Fin grid4.N, _)

/-- Every block of rows is some point's. -/
theorem index_onto : ∀ q : Fin 5, ∃ t : Fin cfg4.N, win4_5.index t = ![q.val, 0] :=
  (by decide +kernel : ∀ q : Fin 5, ∃ t : Fin grid4.N, win4_5.index t = ![q.val, 0])

/-- What point `t` writes back is block `t` of the whole-array function. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero zero_offsets]
  simp only [View.ld_unit_zero (S := S10000x64) zero_offsets, View.ld_unit_zero (S := S64x1) zero_offsets,
    View.ld_unit_zero (S := S1x1) zero_offsets]
  obtain ⟨e0, e1, e2, e3, e4, e5, e6, e7, e8, e9, e10⟩ := index_facts t
  funext j
  show k4_pay1 (F := Ideal) (iblk4 V c 0 t) (iblk4 V c 1 t) (iblk4 V c 2 t) (iblk4 V c 4 t) (iblk4 V c 3 t) j
    = whole V c (((cfg4.win 5).blk t).view.emb j)
  refine (pay4_apply (iblk4 V c 0 t) (iblk4 V c 1 t) (iblk4 V c 2 t) (iblk4 V c 4 t) (iblk4 V c 3 t) j).trans ?_
  unfold whole
  refine congrArg Ideal.logistic (Cert.LibDense.affine_congr (iblk4 V c 1 t) (iblk4 V c 0 t) (V c main_v76) (V c main_v63)
    (iblk4 V c 2 t) (iblk4 V c 4 t) (V c main_arg15) (V c main_arg17) (rowVec (iblk4 V c 3 t)) (rowVec (V c main_v77))
    j (((cfg4.win 5).blk t).view.emb j) (fun k => ?_) (fun k => ?_) (fun k => ?_) (fun k => ?_) ?_)
  · show V c main_v76 (((cfg4.win 1).blk t).view.emb (ix2 (j 0) k)) = _
    refine congrArg (V c main_v76) (funext fun a => Fin.ext ?_)
    match a with
    | ⟨0, _⟩ => show win4_1.index t (0 : Fin 2) * 10000 + 1 * (j 0).val = win4_5.index t (0 : Fin 2) * 10000 + 1 * (j 0).val; omega
    | ⟨1, _⟩ => show win4_1.index t (1 : Fin 2) * 64 + 1 * k.val = k.val; omega
  · show V c main_v63 (((cfg4.win 0).blk t).view.emb (ix2 (j 0) k)) = _
    refine congrArg (V c main_v63) (funext fun a => Fin.ext ?_)
    match a with
    | ⟨0, _⟩ => show win4_0.index t (0 : Fin 2) * 10000 + 1 * (j 0).val = win4_5.index t (0 : Fin 2) * 10000 + 1 * (j 0).val; omega
    | ⟨1, _⟩ => show win4_0.index t (1 : Fin 2) * 64 + 1 * k.val = k.val; omega
  · show V c main_arg15 (((cfg4.win 2).blk t).view.emb (ix2 k (j 1))) = _
    refine congrArg (V c main_arg15) (funext fun a => Fin.ext ?_)
    match a with
    | ⟨0, _⟩ => show win4_2.index t (0 : Fin 2) * 64 + 1 * k.val = k.val; omega
    | ⟨1, _⟩ => show win4_2.index t (1 : Fin 2) * 1 + 1 * (j 1).val = win4_5.index t (1 : Fin 2) * 1 + 1 * (j 1).val; omega
  · show V c main_arg17 (((cfg4.win 4).blk t).view.emb (ix2 k (j 1))) = _
    refine congrArg (V c main_arg17) (funext fun a => Fin.ext ?_)
    match a with
    | ⟨0, _⟩ => show win4_4.index t (0 : Fin 2) * 64 + 1 * k.val = k.val; omega
    | ⟨1, _⟩ => show win4_4.index t (1 : Fin 2) * 1 + 1 * (j 1).val = win4_5.index t (1 : Fin 2) * 1 + 1 * (j 1).val; omega
  · show V c main_v77 (((cfg4.win 3).blk t).view.emb (ix2 ⟨0, Nat.one_pos⟩ (j 1))) = _
    refine congrArg (V c main_v77) (funext fun a => Fin.ext ?_)
    match a with
    | ⟨0, _⟩ => show win4_3.index t (0 : Fin 2) * 1 + 1 * 0 = 0; omega
    | ⟨1, _⟩ => show win4_3.index t (1 : Fin 2) * 1 + 1 * (j 1).val = win4_5.index t (1 : Fin 2) * 1 + 1 * (j 1).val; omega

/-- An index of the output array is in point `t`'s block iff each coordinate is in the block's range on its axis. -/
theorem mem_block (t : Fin cfg4.N) (i : S50000x1.Idx) :
    i ∈ ((cfg4.win 5).blk t).view.set ↔ ∀ a : Fin 2, win4_5.index t a * S10000x1.size a ≤ (i a).val ∧ (i a).val < win4_5.index t a * S10000x1.size a + S10000x1.size a := by
  show i ∈ ((View.whole main_v78).slice (win4_5.rect t)).set ↔ _
  rw [View.set_slice_whole, Rect.mem_set_unit]
  exact Iff.rfl

/-- The five blocks of rows cover the output array. -/
theorem covered (i : S50000x1.Idx) :
    ∃ t : Fin cfg4.N, (cfg4.win 5).flush t = true ∧ i ∈ ((cfg4.win 5).blk t).view.set := by
  have hi0 : (i 0).val < 50000 := (i 0).isLt
  have hi1 : (i 1).val < 1 := (i 1).isLt
  obtain ⟨t, ht⟩ := index_onto ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_block]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 1 ≤ (i 1).val ∧ (i 1).val < win4_5.index t (1 : Fin 2) * 1 + 1; omega

/-- The output array after the launch. -/
theorem final (c : Dev nD) : (dat4 V c).arrAt 5 cfg4.N = whole V c :=
  (dat4 V c).arrAt_eq_of_cover 5 (whole V c) (fun t _ => flushed_eq V c t) (covered)

end Cert.KernelIdeal.Layer4

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.RefLayers.lean ====
/-
  The reference's dense layers, read at an entry on the extended reals.

  Each layer of the reference computes  act( (a · Wrel + b) + x · Wroot )  with two whole-array contractions, the
  bias vector laid out as a row and broadcast down the rows, and act the rectifier (a maximum against the zero word)
  or, in the last layer, 1 / (1 + exp(−·)) spelt with the word of 1.0. Addition on the extended reals is commutative
  and associative, so the bias may be added after the second product instead; and 1 / (1 + exp(−z)) is the logistic
  function once the word of 1.0 is read as 1. No finiteness is needed.
-/
import proofs.«124320_j8589935220_1_alg».proof.Proof.Gen.ReferenceIdeal.Read
import proofs.«124320_j8589935220_1_alg».proof.Proof.LibDense
import proofs.«124320_j8589935220_1_alg».proof.Proof.LibWords
import Idealize.ShloMosaic.Lib.ValueIdx
import Idealize.ShloMosaic.PureOps.Ideal.Laws

noncomputable section

namespace Cert.ReferenceIdeal.Layers

open Idealize.ShloMosaic Idealize.ShloMosaic.ValueIdx Cert.ReferenceIdeal Cert.ReferenceIdeal.Read

/-- The printed dimension records are the plain rows-by-columns contraction. -/
theorem dims_13_64 : dot_S50000x13_S13x64_S50000x64_1_0_0_1_n_n = DotDims.plain 50000 13 64 := rfl
theorem dims_64_64 : dot_S50000x64_S64x64_S50000x64_1_0_0_1_n_n = DotDims.plain 50000 64 64 := rfl
theorem dims_64_1 : dot_S50000x64_S64x1_S50000x1_1_0_0_1_n_n = DotDims.plain 50000 64 1 := rfl

/-- A bias vector of 64 entries as a row broadcast down the 50000 rows: entry (r, j) is `b j`. -/
theorem bias64 (b : FVec Ideal S64 .f32) (i : S50000x64.Idx) : val_main_v19 (F := Ideal) b i = b (ix1 (i 1)) := by
  rw [val_main_v19_apply, val_main_v18_apply]
  exact congrArg b (funext fun a => match a with | ⟨0, _⟩ => rfl)

/-- The one-entry bias of the last layer broadcast down the 50000 rows: entry (r, 0) is `b 0`. -/
theorem bias1 (b : FVec Ideal S1 .f32) (i : S50000x1.Idx) : val_main_v99 (F := Ideal) b i = b (ix1 (i 1)) := by
  rw [val_main_v99_apply, val_main_v98_apply]
  have h1 : (i 1).val < 1 := (i 1).isLt
  exact congrArg b (funext fun a => match a with | ⟨0, _⟩ => Fin.ext (by show 0 = (i 1).val; omega))

/-- Layer 0 (13 input features): the reference's rectified layer is the rectified affine map. -/
theorem host_relu_13 (a x : FVec Ideal S50000x13 .f32) (wl wr : FVec Ideal S13x64 .f32) (b : FVec Ideal S64 .f32) :
    maximumf (addf (addf (Host.dotGeneral dot_S50000x13_S13x64_S50000x64_1_0_0_1_n_n none a wl) (val_main_v19 (F := Ideal) b))
        (Host.dotGeneral dot_S50000x13_S13x64_S50000x64_1_0_0_1_n_n none x wr)) (val_main_call0_v0 (F := Ideal))
      = Cert.LibDense.relu a x wl wr b := by
  funext i
  show max ((FloatOps.dotGeneral (F := Ideal) dot_S50000x13_S13x64_S50000x64_1_0_0_1_n_n none .single a wl i
        + val_main_v19 (F := Ideal) b i)
      + FloatOps.dotGeneral (F := Ideal) dot_S50000x13_S13x64_S50000x64_1_0_0_1_n_n none .single x wr i)
      (Ideal.ofBits .f32 0x00000000#32) = _
  rw [bias64, dims_13_64, Cert.LibDense.dotGeneral_plain, Cert.LibDense.dotGeneral_plain]
  unfold Cert.LibDense.relu Cert.LibDense.affine
  rw [add_right_comm]

/-- Layers 1 to 3 (64 input features). -/
theorem host_relu_64 (a x : FVec Ideal S50000x64 .f32) (wl wr : FVec Ideal S64x64 .f32) (b : FVec Ideal S64 .f32) :
    maximumf (addf (addf (Host.dotGeneral dot_S50000x64_S64x64_S50000x64_1_0_0_1_n_n none a wl) (val_main_v19 (F := Ideal) b))
        (Host.dotGeneral dot_S50000x64_S64x64_S50000x64_1_0_0_1_n_n none x wr)) (val_main_call0_v0 (F := Ideal))
      = Cert.LibDense.relu a x wl wr b := by
  funext i
  show max ((FloatOps.dotGeneral (F := Ideal) dot_S50000x64_S64x64_S50000x64_1_0_0_1_n_n none .single a wl i
        + val_main_v19 (F := Ideal) b i)
      + FloatOps.dotGeneral (F := Ideal) dot_S50000x64_S64x64_S50000x64_1_0_0_1_n_n none .single x wr i)
      (Ideal.ofBits .f32 0x00000000#32) = _
  rw [bias64, dims_64_64, Cert.LibDense.dotGeneral_plain, Cert.LibDense.dotGeneral_plain]
  unfold Cert.LibDense.relu Cert.LibDense.affine
  rw [add_right_comm]

/-- Layer 4 (one output feature): 1 / (1 + exp(−z)) of the affine map is its logistic function. -/
theorem host_sigmoid (a x : FVec Ideal S50000x64 .f32) (wl wr : FVec Ideal S64x1 .f32) (b : FVec Ideal S1 .f32) :
    Host.divf (val_main_v107 (F := Ideal)) (addf (val_main_v105 (F := Ideal)) (Host.exp (Host.negf
        (addf (addf (Host.dotGeneral dot_S50000x64_S64x1_S50000x1_1_0_0_1_n_n none a wl) (val_main_v99 (F := Ideal) b))
          (Host.dotGeneral dot_S50000x64_S64x1_S50000x1_1_0_0_1_n_n none x wr)))))
      = fun i => Ideal.logistic (Cert.LibDense.affine a x wl wr b i) := by
  funext i
  show Ideal.div (Ideal.ofBits .f32 0x3F800000#32) (Ideal.ofBits .f32 0x3F800000#32 + Ideal.exp (-(
      (FloatOps.dotGeneral (F := Ideal) dot_S50000x64_S64x1_S50000x1_1_0_0_1_n_n none .single a wl i
        + val_main_v99 (F := Ideal) b i)
      + FloatOps.dotGeneral (F := Ideal) dot_S50000x64_S64x1_S50000x1_1_0_0_1_n_n none .single x wr i))) = _
  rw [bias1, dims_64_1, Cert.LibDense.dotGeneral_plain, Cert.LibDense.dotGeneral_plain, Cert.Chamfer.Words.ofBits_one,
    add_right_comm]
  rfl

end Cert.ReferenceIdeal.Layers

end
-- ==== Proof.Fold.lean ====
/-
  The fold of buffer contents through the idealized kernel program, stage by stage, as functions of the arguments.

  Stage 0 is the launch memory; an odd stage follows a stretch of host operations (the edge gather, the weighting by
  the edge weights, the scatter-add into destination rows, and the bias vector laid out as a row); an even stage
  follows a launch of the dense-layer kernel. A buffer that a stretch does not write, or that is not a launch's output
  array, keeps its contents across that stage. With these, each layer's aggregated rows and each layer's output are
  read back to the launch arguments: the host operations of the kernel program are, operation for operation, those of
  the reference, and each launch computes the reference's dense layer (the bias added after the second product
  instead of before it, and the logistic function in one operation in the last layer). Hence the result buffer at the
  last stage is the reference's result as a function of the same arguments.
-/
import proofs.«124320_j8589935220_1_alg».proof.Proof.Gen.KernelIdeal.Frame
import proofs.«124320_j8589935220_1_alg».proof.Proof.Gen.ReferenceIdeal.Read
import proofs.«124320_j8589935220_1_alg».proof.Proof.KLayer0
import proofs.«124320_j8589935220_1_alg».proof.Proof.KLayer1
import proofs.«124320_j8589935220_1_alg».proof.Proof.KLayer2
import proofs.«124320_j8589935220_1_alg».proof.Proof.KLayer3
import proofs.«124320_j8589935220_1_alg».proof.Proof.KLayer4
import proofs.«124320_j8589935220_1_alg».proof.Proof.RefLayers
import proofs.«124320_j8589935220_1_alg».proof.Proof.LibBiasRows
import Idealize.ShloMosaic.Lib.StableHlo.Run
import Idealize.ShloMosaic.Lib.ValueIdx

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.Payloads
open Cert.ReferenceIdeal.Read (val_main_v1 val_main_v3 val_main_v16 val_main_v36 val_main_v56 val_main_v76 val_main_v96 val_main_v23 val_main_v43 val_main_v63 val_main_v83 val_main_v108)

variable (m : (ℓ : Loc nD τ sig) → Buf (Elt Ideal) ℓ) (ρ : Dev nD → PrngReg) (c : Dev nD)

/-! ## Buffers that keep their contents across a stage -/

theorem inputs0 : ∀ w : Fin cfg0.W, Pipeline.arrRef spec0 w ≠ main_v18 → (cfg0.win w).isOut = false := by decide

/-- Launch 0 rewrites its output array only. -/
theorem keep_region0 (b : Ref sig .tc) (hb : b ≠ main_v18) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (inputs0 w hb) _).trans (A_eq0 (V1 m ρ) c w))
  · exact W2_of_ne m ρ c b (fun w e => h ⟨w, e⟩)

/-- The host operations before launch 0 rewrite their own results only. -/
theorem keep_host0 (b : Ref sig .tc) (hb : b ∉ [main_v0, main_v1, main_v2, main_v3, main_v4, main_c, main_v5, main_v6, main_c_0, main_v7, main_v8, main_v9, main_v10, main_v11, main_v12, main_v13, main_cst, main_v14, main_v15, main_v16, main_v17]) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact hb (by decide))))

theorem inputs1 : ∀ w : Fin cfg1.W, Pipeline.arrRef spec1 w ≠ main_v33 → (cfg1.win w).isOut = false := by decide

/-- Launch 1 rewrites its output array only. -/
theorem keep_region1 (b : Ref sig .tc) (hb : b ≠ main_v33) : W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (inputs1 w hb) _).trans (A_eq1 (V3 m ρ) c w))
  · exact W4_of_ne m ρ c b (fun w e => h ⟨w, e⟩)

/-- The host operations before launch 1 rewrite their own results only. -/
theorem keep_host1 (b : Ref sig .tc) (hb : b ∉ [main_v19, main_c_1, main_v20, main_v21, main_c_2, main_v22, main_v23, main_v24, main_v25, main_v26, main_v27, main_v28, main_cst_3, main_v29, main_v30, main_v31, main_v32]) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact hb (by decide))))

theorem inputs2 : ∀ w : Fin cfg2.W, Pipeline.arrRef spec2 w ≠ main_v48 → (cfg2.win w).isOut = false := by decide

/-- Launch 2 rewrites its output array only. -/
theorem keep_region2 (b : Ref sig .tc) (hb : b ≠ main_v48) : W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (inputs2 w hb) _).trans (A_eq2 (V5 m ρ) c w))
  · exact W6_of_ne m ρ c b (fun w e => h ⟨w, e⟩)

/-- The host operations before launch 2 rewrite their own results only. -/
theorem keep_host2 (b : Ref sig .tc) (hb : b ∉ [main_v34, main_c_4, main_v35, main_v36, main_c_5, main_v37, main_v38, main_v39, main_v40, main_v41, main_v42, main_v43, main_cst_6, main_v44, main_v45, main_v46, main_v47]) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact hb (by decide))))

theorem inputs3 : ∀ w : Fin cfg3.W, Pipeline.arrRef spec3 w ≠ main_v63 → (cfg3.win w).isOut = false := by decide

/-- Launch 3 rewrites its output array only. -/
theorem keep_region3 (b : Ref sig .tc) (hb : b ≠ main_v63) : W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (inputs3 w hb) _).trans (A_eq3 (V7 m ρ) c w))
  · exact W8_of_ne m ρ c b (fun w e => h ⟨w, e⟩)

/-- The host operations before launch 3 rewrite their own results only. -/
theorem keep_host3 (b : Ref sig .tc) (hb : b ∉ [main_v49, main_c_7, main_v50, main_v51, main_c_8, main_v52, main_v53, main_v54, main_v55, main_v56, main_v57, main_v58, main_cst_9, main_v59, main_v60, main_v61, main_v62]) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact hb (by decide))))

theorem inputs4 : ∀ w : Fin cfg4.W, Pipeline.arrRef spec4 w ≠ main_v78 → (cfg4.win w).isOut = false := by decide

/-- Launch 4 rewrites its output array only. -/
theorem keep_region4 (b : Ref sig .tc) (hb : b ≠ main_v78) : W10 m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (inputs4 w hb) _).trans (A_eq4 (V9 m ρ) c w))
  · exact W10_of_ne m ρ c b (fun w e => h ⟨w, e⟩)

/-- The host operations before launch 4 rewrite their own results only. -/
theorem keep_host4 (b : Ref sig .tc) (hb : b ∉ [main_v64, main_c_10, main_v65, main_v66, main_c_11, main_v67, main_v68, main_v69, main_v70, main_v71, main_v72, main_v73, main_cst_12, main_v74, main_v75, main_v76, main_v77]) :
    W9 m ρ c (Proc.devRef .tc b) = W8 m ρ c (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => by subst e; exact hb (by decide))))

/-! ## The edge endpoints: computed once, read by every later stretch -/

theorem src1 : W1 m ρ c (Proc.devRef .tc main_v1) = val_main_v1 (F := Ideal) (m ((c : Thread nD τ).loc main_arg1)) := by
  show StableHlo.after hostOps0 (W0 m ρ c) (Proc.devRef .tc main_v1) = _
  after_results
  rfl

theorem dst1 : W1 m ρ c (Proc.devRef .tc main_v3) = val_main_v3 (F := Ideal) (m ((c : Thread nD τ).loc main_arg1)) := by
  show StableHlo.after hostOps0 (W0 m ρ c) (Proc.devRef .tc main_v3) = _
  after_results
  rfl

/-- One round of message passing over 64 features: the rows of `h` gathered at the edges' sources (a negative source
    wrapped around by the number of nodes), each weighted by its edge weight, added into the rows of the edges'
    destinations starting from zero. -/
def messages64 (ew : FVec Ideal S800000 .f32) (src dst : IVec S800000 32) (h : FVec Ideal S50000x64 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (broadcastInDim S800000x64 ![0, 1] bcast_S800000x1_S800000x64_0_1 (broadcastInDim S800000x1 ![0] bcast_S800000_S800000x1_0 ew))
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

theorem messages64_congr {ew ew' : FVec Ideal S800000 .f32} {src src' dst dst' : IVec S800000 32} {h h' : FVec Ideal S50000x64 .f32}
    (e1 : ew = ew') (e2 : src = src') (e3 : dst = dst') (e4 : h = h') :
    messages64 ew src dst h = messages64 ew' src' dst' h' := by
  subst e1 e2 e3 e4; rfl

/-- A bias vector laid out as a row, read back as a vector. -/
theorem rowVec_cast {d : ℕ} (b : (⟨1, ![d]⟩ : Shape).Idx → EReal) (h : (⟨1, ![d]⟩ : Shape).ShapeCasts ⟨2, ![1, d]⟩) :
    rowVec (shapeCast ⟨2, ![1, d]⟩ b h) = b := by
  funext q
  exact (Cert.LibBiasRows.row_of_vector b h (q 0)).trans (congrArg b (eq_ix1 q).symm)

/-! ## Layer 0 -/

/-- The aggregated neighbour rows that launch 0 reads are the reference's. -/
theorem agg0 : W1 m ρ c (Proc.devRef .tc main_v16) = val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  after_results
  rfl

/-- The bias row that launch 0 reads is the bias vector. -/
theorem bias0 : rowVec (W1 m ρ c (Proc.devRef .tc main_v17)) = (m ((c : Thread nD τ).loc main_arg4)) := by
  have e : W1 m ρ c (Proc.devRef .tc main_v17) = shapeCast _ (m ((c : Thread nD τ).loc main_arg4)) shapeCasts_S64_S1x64 := by
    show StableHlo.after hostOps0 (W0 m ρ c) (Proc.devRef .tc main_v17) = _
    after_results
    rfl
  rw [e]
  exact rowVec_cast _ _

theorem x0 : W1 m ρ c (Proc.devRef .tc main_arg0) = (m ((c : Thread nD τ).loc main_arg0)) := (keep_host0 m ρ c main_arg0 (by decide))
theorem wl0 : W1 m ρ c (Proc.devRef .tc main_arg3) = (m ((c : Thread nD τ).loc main_arg3)) := (keep_host0 m ρ c main_arg3 (by decide))
theorem wr0 : W1 m ρ c (Proc.devRef .tc main_arg5) = (m ((c : Thread nD τ).loc main_arg5)) := (keep_host0 m ρ c main_arg5 (by decide))

/-- Launch 0's output array is the reference's layer 0. -/
theorem out0 : W2 m ρ c (Proc.devRef .tc main_v18) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Cert.KernelIdeal.Layer0.final (V1 m ρ) c).trans ?_)
  show (fun i => Cert.LibDense.relu (W1 m ρ c (Proc.devRef .tc main_v16)) (W1 m ρ c (Proc.devRef .tc main_arg0)) (W1 m ρ c (Proc.devRef .tc main_arg3)) (W1 m ρ c (Proc.devRef .tc main_arg5))
      (rowVec (W1 m ρ c (Proc.devRef .tc main_v17))) i) = _
  rw [agg0 m ρ c, x0 m ρ c, wl0 m ρ c, wr0 m ρ c, bias0 m ρ c]
  exact (Cert.ReferenceIdeal.Layers.host_relu_13 _ _ _ _ _).symm

/-! ## Layer 1 -/

theorem ew1 : W2 m ρ c (Proc.devRef .tc main_arg2) = (m ((c : Thread nD τ).loc main_arg2)) := ((keep_region0 m ρ c main_arg2 (by decide)).trans (keep_host0 m ρ c main_arg2 (by decide)))
theorem src2 : W2 m ρ c (Proc.devRef .tc main_v1) = val_main_v1 (F := Ideal) (m ((c : Thread nD τ).loc main_arg1)) := (keep_region0 m ρ c main_v1 (by decide)).trans (src1 m ρ c)
theorem dst2 : W2 m ρ c (Proc.devRef .tc main_v3) = val_main_v3 (F := Ideal) (m ((c : Thread nD τ).loc main_arg1)) := (keep_region0 m ρ c main_v3 (by decide)).trans (dst1 m ρ c)
theorem biasArg1 : W2 m ρ c (Proc.devRef .tc main_arg7) = (m ((c : Thread nD τ).loc main_arg7)) := ((keep_region0 m ρ c main_arg7 (by decide)).trans (keep_host0 m ρ c main_arg7 (by decide)))

/-- The aggregated neighbour rows that launch 1 reads are the reference's. -/
theorem agg1 : W3 m ρ c (Proc.devRef .tc main_v31) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have raw : W3 m ρ c (Proc.devRef .tc main_v31) = messages64 (W2 m ρ c (Proc.devRef .tc main_arg2)) (W2 m ρ c (Proc.devRef .tc main_v1)) (W2 m ρ c (Proc.devRef .tc main_v3)) (W2 m ρ c (Proc.devRef .tc main_v18)) := by
    show StableHlo.after hostOps1 (W2 m ρ c) (Proc.devRef .tc main_v31) = _
    after_results
    rfl
  refine raw.trans ((messages64_congr (ew1 m ρ c) (src2 m ρ c) (dst2 m ρ c) (out0 m ρ c)).trans ?_)
  rfl

/-- The bias row that launch 1 reads is the bias vector. -/
theorem bias1 : rowVec (W3 m ρ c (Proc.devRef .tc main_v32)) = (m ((c : Thread nD τ).loc main_arg7)) := by
  have e : W3 m ρ c (Proc.devRef .tc main_v32) = shapeCast _ (W2 m ρ c (Proc.devRef .tc main_arg7)) shapeCasts_S64_S1x64 := by
    show StableHlo.after hostOps1 (W2 m ρ c) (Proc.devRef .tc main_v32) = _
    after_results
    rfl
  rw [e, biasArg1 m ρ c]
  exact rowVec_cast _ _

theorem x1 : W3 m ρ c (Proc.devRef .tc main_v18) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (keep_host1 m ρ c main_v18 (by decide)).trans (out0 m ρ c)
theorem wl1 : W3 m ρ c (Proc.devRef .tc main_arg6) = (m ((c : Thread nD τ).loc main_arg6)) := ((keep_host1 m ρ c main_arg6 (by decide)).trans ((keep_region0 m ρ c main_arg6 (by decide)).trans (keep_host0 m ρ c main_arg6 (by decide))))
theorem wr1 : W3 m ρ c (Proc.devRef .tc main_arg8) = (m ((c : Thread nD τ).loc main_arg8)) := ((keep_host1 m ρ c main_arg8 (by decide)).trans ((keep_region0 m ρ c main_arg8 (by decide)).trans (keep_host0 m ρ c main_arg8 (by decide))))

/-- Launch 1's output array is the reference's layer 1. -/
theorem out1 : W4 m ρ c (Proc.devRef .tc main_v33) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Layer1.final (V3 m ρ) c).trans ?_)
  show (fun i => Cert.LibDense.relu (W3 m ρ c (Proc.devRef .tc main_v31)) (W3 m ρ c (Proc.devRef .tc main_v18)) (W3 m ρ c (Proc.devRef .tc main_arg6)) (W3 m ρ c (Proc.devRef .tc main_arg8))
      (rowVec (W3 m ρ c (Proc.devRef .tc main_v32))) i) = _
  rw [agg1 m ρ c, x1 m ρ c, wl1 m ρ c, wr1 m ρ c, bias1 m ρ c]
  exact (Cert.ReferenceIdeal.Layers.host_relu_64 _ _ _ _ _).symm

/-! ## Layer 2 -/

theorem ew2 : W4 m ρ c (Proc.devRef .tc main_arg2) = (m ((c : Thread nD τ).loc main_arg2)) := ((keep_region1 m ρ c main_arg2 (by decide)).trans ((keep_host1 m ρ c main_arg2 (by decide)).trans ((keep_region0 m ρ c main_arg2 (by decide)).trans (keep_host0 m ρ c main_arg2 (by decide)))))
theorem src3 : W4 m ρ c (Proc.devRef .tc main_v1) = val_main_v1 (F := Ideal) (m ((c : Thread nD τ).loc main_arg1)) := ((keep_region1 m ρ c main_v1 (by decide)).trans ((keep_host1 m ρ c main_v1 (by decide)).trans (keep_region0 m ρ c main_v1 (by decide)))).trans (src1 m ρ c)
theorem dst3 : W4 m ρ c (Proc.devRef .tc main_v3) = val_main_v3 (F := Ideal) (m ((c : Thread nD τ).loc main_arg1)) := ((keep_region1 m ρ c main_v3 (by decide)).trans ((keep_host1 m ρ c main_v3 (by decide)).trans (keep_region0 m ρ c main_v3 (by decide)))).trans (dst1 m ρ c)
theorem biasArg2 : W4 m ρ c (Proc.devRef .tc main_arg10) = (m ((c : Thread nD τ).loc main_arg10)) := ((keep_region1 m ρ c main_arg10 (by decide)).trans ((keep_host1 m ρ c main_arg10 (by decide)).trans ((keep_region0 m ρ c main_arg10 (by decide)).trans (keep_host0 m ρ c main_arg10 (by decide)))))

/-- The aggregated neighbour rows that launch 2 reads are the reference's. -/
theorem agg2 : W5 m ρ c (Proc.devRef .tc main_v46) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have raw : W5 m ρ c (Proc.devRef .tc main_v46) = messages64 (W4 m ρ c (Proc.devRef .tc main_arg2)) (W4 m ρ c (Proc.devRef .tc main_v1)) (W4 m ρ c (Proc.devRef .tc main_v3)) (W4 m ρ c (Proc.devRef .tc main_v33)) := by
    show StableHlo.after hostOps2 (W4 m ρ c) (Proc.devRef .tc main_v46) = _
    after_results
    rfl
  refine raw.trans ((messages64_congr (ew2 m ρ c) (src3 m ρ c) (dst3 m ρ c) (out1 m ρ c)).trans ?_)
  rfl

/-- The bias row that launch 2 reads is the bias vector. -/
theorem bias2 : rowVec (W5 m ρ c (Proc.devRef .tc main_v47)) = (m ((c : Thread nD τ).loc main_arg10)) := by
  have e : W5 m ρ c (Proc.devRef .tc main_v47) = shapeCast _ (W4 m ρ c (Proc.devRef .tc main_arg10)) shapeCasts_S64_S1x64 := by
    show StableHlo.after hostOps2 (W4 m ρ c) (Proc.devRef .tc main_v47) = _
    after_results
    rfl
  rw [e, biasArg2 m ρ c]
  exact rowVec_cast _ _

theorem x2 : W5 m ρ c (Proc.devRef .tc main_v33) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (keep_host2 m ρ c main_v33 (by decide)).trans (out1 m ρ c)
theorem wl2 : W5 m ρ c (Proc.devRef .tc main_arg9) = (m ((c : Thread nD τ).loc main_arg9)) := ((keep_host2 m ρ c main_arg9 (by decide)).trans ((keep_region1 m ρ c main_arg9 (by decide)).trans ((keep_host1 m ρ c main_arg9 (by decide)).trans ((keep_region0 m ρ c main_arg9 (by decide)).trans (keep_host0 m ρ c main_arg9 (by decide))))))
theorem wr2 : W5 m ρ c (Proc.devRef .tc main_arg11) = (m ((c : Thread nD τ).loc main_arg11)) := ((keep_host2 m ρ c main_arg11 (by decide)).trans ((keep_region1 m ρ c main_arg11 (by decide)).trans ((keep_host1 m ρ c main_arg11 (by decide)).trans ((keep_region0 m ρ c main_arg11 (by decide)).trans (keep_host0 m ρ c main_arg11 (by decide))))))

/-- Launch 2's output array is the reference's layer 2. -/
theorem out2 : W6 m ρ c (Proc.devRef .tc main_v48) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Cert.KernelIdeal.Layer2.final (V5 m ρ) c).trans ?_)
  show (fun i => Cert.LibDense.relu (W5 m ρ c (Proc.devRef .tc main_v46)) (W5 m ρ c (Proc.devRef .tc main_v33)) (W5 m ρ c (Proc.devRef .tc main_arg9)) (W5 m ρ c (Proc.devRef .tc main_arg11))
      (rowVec (W5 m ρ c (Proc.devRef .tc main_v47))) i) = _
  rw [agg2 m ρ c, x2 m ρ c, wl2 m ρ c, wr2 m ρ c, bias2 m ρ c]
  exact (Cert.ReferenceIdeal.Layers.host_relu_64 _ _ _ _ _).symm

/-! ## Layer 3 -/

theorem ew3 : W6 m ρ c (Proc.devRef .tc main_arg2) = (m ((c : Thread nD τ).loc main_arg2)) := ((keep_region2 m ρ c main_arg2 (by decide)).trans ((keep_host2 m ρ c main_arg2 (by decide)).trans ((keep_region1 m ρ c main_arg2 (by decide)).trans ((keep_host1 m ρ c main_arg2 (by decide)).trans ((keep_region0 m ρ c main_arg2 (by decide)).trans (keep_host0 m ρ c main_arg2 (by decide)))))))
theorem src4 : W6 m ρ c (Proc.devRef .tc main_v1) = val_main_v1 (F := Ideal) (m ((c : Thread nD τ).loc main_arg1)) := ((keep_region2 m ρ c main_v1 (by decide)).trans ((keep_host2 m ρ c main_v1 (by decide)).trans ((keep_region1 m ρ c main_v1 (by decide)).trans ((keep_host1 m ρ c main_v1 (by decide)).trans (keep_region0 m ρ c main_v1 (by decide)))))).trans (src1 m ρ c)
theorem dst4 : W6 m ρ c (Proc.devRef .tc main_v3) = val_main_v3 (F := Ideal) (m ((c : Thread nD τ).loc main_arg1)) := ((keep_region2 m ρ c main_v3 (by decide)).trans ((keep_host2 m ρ c main_v3 (by decide)).trans ((keep_region1 m ρ c main_v3 (by decide)).trans ((keep_host1 m ρ c main_v3 (by decide)).trans (keep_region0 m ρ c main_v3 (by decide)))))).trans (dst1 m ρ c)
theorem biasArg3 : W6 m ρ c (Proc.devRef .tc main_arg13) = (m ((c : Thread nD τ).loc main_arg13)) := ((keep_region2 m ρ c main_arg13 (by decide)).trans ((keep_host2 m ρ c main_arg13 (by decide)).trans ((keep_region1 m ρ c main_arg13 (by decide)).trans ((keep_host1 m ρ c main_arg13 (by decide)).trans ((keep_region0 m ρ c main_arg13 (by decide)).trans (keep_host0 m ρ c main_arg13 (by decide)))))))

/-- The aggregated neighbour rows that launch 3 reads are the reference's. -/
theorem agg3 : W7 m ρ c (Proc.devRef .tc main_v61) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have raw : W7 m ρ c (Proc.devRef .tc main_v61) = messages64 (W6 m ρ c (Proc.devRef .tc main_arg2)) (W6 m ρ c (Proc.devRef .tc main_v1)) (W6 m ρ c (Proc.devRef .tc main_v3)) (W6 m ρ c (Proc.devRef .tc main_v48)) := by
    show StableHlo.after hostOps3 (W6 m ρ c) (Proc.devRef .tc main_v61) = _
    after_results
    rfl
  refine raw.trans ((messages64_congr (ew3 m ρ c) (src4 m ρ c) (dst4 m ρ c) (out2 m ρ c)).trans ?_)
  rfl

/-- The bias row that launch 3 reads is the bias vector. -/
theorem bias3 : rowVec (W7 m ρ c (Proc.devRef .tc main_v62)) = (m ((c : Thread nD τ).loc main_arg13)) := by
  have e : W7 m ρ c (Proc.devRef .tc main_v62) = shapeCast _ (W6 m ρ c (Proc.devRef .tc main_arg13)) shapeCasts_S64_S1x64 := by
    show StableHlo.after hostOps3 (W6 m ρ c) (Proc.devRef .tc main_v62) = _
    after_results
    rfl
  rw [e, biasArg3 m ρ c]
  exact rowVec_cast _ _

theorem x3 : W7 m ρ c (Proc.devRef .tc main_v48) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := (keep_host3 m ρ c main_v48 (by decide)).trans (out2 m ρ c)
theorem wl3 : W7 m ρ c (Proc.devRef .tc main_arg12) = (m ((c : Thread nD τ).loc main_arg12)) := ((keep_host3 m ρ c main_arg12 (by decide)).trans ((keep_region2 m ρ c main_arg12 (by decide)).trans ((keep_host2 m ρ c main_arg12 (by decide)).trans ((keep_region1 m ρ c main_arg12 (by decide)).trans ((keep_host1 m ρ c main_arg12 (by decide)).trans ((keep_region0 m ρ c main_arg12 (by decide)).trans (keep_host0 m ρ c main_arg12 (by decide))))))))
theorem wr3 : W7 m ρ c (Proc.devRef .tc main_arg14) = (m ((c : Thread nD τ).loc main_arg14)) := ((keep_host3 m ρ c main_arg14 (by decide)).trans ((keep_region2 m ρ c main_arg14 (by decide)).trans ((keep_host2 m ρ c main_arg14 (by decide)).trans ((keep_region1 m ρ c main_arg14 (by decide)).trans ((keep_host1 m ρ c main_arg14 (by decide)).trans ((keep_region0 m ρ c main_arg14 (by decide)).trans (keep_host0 m ρ c main_arg14 (by decide))))))))

/-- Launch 3's output array is the reference's layer 3. -/
theorem out3 : W8 m ρ c (Proc.devRef .tc main_v63) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 5).trans ((Cert.KernelIdeal.Layer3.final (V7 m ρ) c).trans ?_)
  show (fun i => Cert.LibDense.relu (W7 m ρ c (Proc.devRef .tc main_v61)) (W7 m ρ c (Proc.devRef .tc main_v48)) (W7 m ρ c (Proc.devRef .tc main_arg12)) (W7 m ρ c (Proc.devRef .tc main_arg14))
      (rowVec (W7 m ρ c (Proc.devRef .tc main_v62))) i) = _
  rw [agg3 m ρ c, x3 m ρ c, wl3 m ρ c, wr3 m ρ c, bias3 m ρ c]
  exact (Cert.ReferenceIdeal.Layers.host_relu_64 _ _ _ _ _).symm

/-! ## Layer 4 -/

theorem ew4 : W8 m ρ c (Proc.devRef .tc main_arg2) = (m ((c : Thread nD τ).loc main_arg2)) := ((keep_region3 m ρ c main_arg2 (by decide)).trans ((keep_host3 m ρ c main_arg2 (by decide)).trans ((keep_region2 m ρ c main_arg2 (by decide)).trans ((keep_host2 m ρ c main_arg2 (by decide)).trans ((keep_region1 m ρ c main_arg2 (by decide)).trans ((keep_host1 m ρ c main_arg2 (by decide)).trans ((keep_region0 m ρ c main_arg2 (by decide)).trans (keep_host0 m ρ c main_arg2 (by decide)))))))))
theorem src5 : W8 m ρ c (Proc.devRef .tc main_v1) = val_main_v1 (F := Ideal) (m ((c : Thread nD τ).loc main_arg1)) := ((keep_region3 m ρ c main_v1 (by decide)).trans ((keep_host3 m ρ c main_v1 (by decide)).trans ((keep_region2 m ρ c main_v1 (by decide)).trans ((keep_host2 m ρ c main_v1 (by decide)).trans ((keep_region1 m ρ c main_v1 (by decide)).trans ((keep_host1 m ρ c main_v1 (by decide)).trans (keep_region0 m ρ c main_v1 (by decide)))))))).trans (src1 m ρ c)
theorem dst5 : W8 m ρ c (Proc.devRef .tc main_v3) = val_main_v3 (F := Ideal) (m ((c : Thread nD τ).loc main_arg1)) := ((keep_region3 m ρ c main_v3 (by decide)).trans ((keep_host3 m ρ c main_v3 (by decide)).trans ((keep_region2 m ρ c main_v3 (by decide)).trans ((keep_host2 m ρ c main_v3 (by decide)).trans ((keep_region1 m ρ c main_v3 (by decide)).trans ((keep_host1 m ρ c main_v3 (by decide)).trans (keep_region0 m ρ c main_v3 (by decide)))))))).trans (dst1 m ρ c)
theorem biasArg4 : W8 m ρ c (Proc.devRef .tc main_arg16) = (m ((c : Thread nD τ).loc main_arg16)) := ((keep_region3 m ρ c main_arg16 (by decide)).trans ((keep_host3 m ρ c main_arg16 (by decide)).trans ((keep_region2 m ρ c main_arg16 (by decide)).trans ((keep_host2 m ρ c main_arg16 (by decide)).trans ((keep_region1 m ρ c main_arg16 (by decide)).trans ((keep_host1 m ρ c main_arg16 (by decide)).trans ((keep_region0 m ρ c main_arg16 (by decide)).trans (keep_host0 m ρ c main_arg16 (by decide)))))))))

/-- The aggregated neighbour rows that launch 4 reads are the reference's. -/
theorem agg4 : W9 m ρ c (Proc.devRef .tc main_v76) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have raw : W9 m ρ c (Proc.devRef .tc main_v76) = messages64 (W8 m ρ c (Proc.devRef .tc main_arg2)) (W8 m ρ c (Proc.devRef .tc main_v1)) (W8 m ρ c (Proc.devRef .tc main_v3)) (W8 m ρ c (Proc.devRef .tc main_v63)) := by
    show StableHlo.after hostOps4 (W8 m ρ c) (Proc.devRef .tc main_v76) = _
    after_results
    rfl
  refine raw.trans ((messages64_congr (ew4 m ρ c) (src5 m ρ c) (dst5 m ρ c) (out3 m ρ c)).trans ?_)
  rfl

/-- The bias row that launch 4 reads is the bias vector. -/
theorem bias4 : rowVec (W9 m ρ c (Proc.devRef .tc main_v77)) = (m ((c : Thread nD τ).loc main_arg16)) := by
  have e : W9 m ρ c (Proc.devRef .tc main_v77) = shapeCast _ (W8 m ρ c (Proc.devRef .tc main_arg16)) shapeCasts_S1_S1x1 := by
    show StableHlo.after hostOps4 (W8 m ρ c) (Proc.devRef .tc main_v77) = _
    after_results
    rfl
  rw [e, biasArg4 m ρ c]
  exact rowVec_cast _ _

theorem x4 : W9 m ρ c (Proc.devRef .tc main_v63) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := (keep_host4 m ρ c main_v63 (by decide)).trans (out3 m ρ c)
theorem wl4 : W9 m ρ c (Proc.devRef .tc main_arg15) = (m ((c : Thread nD τ).loc main_arg15)) := ((keep_host4 m ρ c main_arg15 (by decide)).trans ((keep_region3 m ρ c main_arg15 (by decide)).trans ((keep_host3 m ρ c main_arg15 (by decide)).trans ((keep_region2 m ρ c main_arg15 (by decide)).trans ((keep_host2 m ρ c main_arg15 (by decide)).trans ((keep_region1 m ρ c main_arg15 (by decide)).trans ((keep_host1 m ρ c main_arg15 (by decide)).trans ((keep_region0 m ρ c main_arg15 (by decide)).trans (keep_host0 m ρ c main_arg15 (by decide))))))))))
theorem wr4 : W9 m ρ c (Proc.devRef .tc main_arg17) = (m ((c : Thread nD τ).loc main_arg17)) := ((keep_host4 m ρ c main_arg17 (by decide)).trans ((keep_region3 m ρ c main_arg17 (by decide)).trans ((keep_host3 m ρ c main_arg17 (by decide)).trans ((keep_region2 m ρ c main_arg17 (by decide)).trans ((keep_host2 m ρ c main_arg17 (by decide)).trans ((keep_region1 m ρ c main_arg17 (by decide)).trans ((keep_host1 m ρ c main_arg17 (by decide)).trans ((keep_region0 m ρ c main_arg17 (by decide)).trans (keep_host0 m ρ c main_arg17 (by decide))))))))))

/-- Launch 4's output array is the reference's layer 4. -/
theorem out4 : W10 m ρ c (Proc.devRef .tc main_v78) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W10_arr m ρ c 5).trans ((Cert.KernelIdeal.Layer4.final (V9 m ρ) c).trans ?_)
  show (fun i => Ideal.logistic (Cert.LibDense.affine (W9 m ρ c (Proc.devRef .tc main_v76)) (W9 m ρ c (Proc.devRef .tc main_v63)) (W9 m ρ c (Proc.devRef .tc main_arg15)) (W9 m ρ c (Proc.devRef .tc main_arg17))
      (rowVec (W9 m ρ c (Proc.devRef .tc main_v77))) i)) = _
  rw [agg4 m ρ c, x4 m ρ c, wl4 m ρ c, wr4 m ρ c, bias4 m ρ c]
  exact (Cert.ReferenceIdeal.Layers.host_sigmoid _ _ _ _ _).symm

end Cert.KernelIdeal.Fold

end
-- ==== Proof.lean ====
/-
  A five-layer graph convolution: each layer gathers the rows of its input at the edges' sources, weights them by the
  edge weights, adds them into the rows of the edges' destinations, and applies a dense map
      act( aggregated · Wrel + b + input · Wroot ),
  act the rectifier in layers 0 to 3 and the logistic function in layer 4. The kernel program computes the dense map
  of every layer in a launched kernel over five blocks of 10000 rows, as (aggregated · Wrel + input · Wroot) + b, and
  leaves the gather and the scatter-add to the same host operations as the reference.

  On the extended reals the two programs compute one function of the arguments: a product accumulated block by block
  of rows is the whole product restricted to those rows, a change of float format is the identity, addition is
  commutative and associative (so the bias may be added last), and 1 / (1 + exp(−z)) is the logistic function. None of
  this needs the inputs to be finite, so the precondition is never opened.

  The three frames: the two kernel programs by the generated frame certificates, the reference by its generated run.
  The idealization rewrote no operation, so there is nothing to preserve beyond the program text.
-/
import proofs.«124320_j8589935220_1_alg».proof.Defs
import proofs.«124320_j8589935220_1_alg».proof.Proof.Gen.Kernel
import proofs.«124320_j8589935220_1_alg».proof.Proof.Gen.Kernel.Skeleton
import proofs.«124320_j8589935220_1_alg».proof.Proof.Gen.Kernel.Launch
import proofs.«124320_j8589935220_1_alg».proof.Proof.Gen.Kernel.Points
import proofs.«124320_j8589935220_1_alg».proof.Proof.Gen.Kernel.Frame
import proofs.«124320_j8589935220_1_alg».proof.Proof.Gen.KernelIdeal
import proofs.«124320_j8589935220_1_alg».proof.Proof.Gen.KernelIdeal.Skeleton
import proofs.«124320_j8589935220_1_alg».proof.Proof.Gen.KernelIdeal.Launch
import proofs.«124320_j8589935220_1_alg».proof.Proof.Gen.KernelIdeal.Points
import proofs.«124320_j8589935220_1_alg».proof.Proof.Gen.KernelIdeal.Frame
import proofs.«124320_j8589935220_1_alg».proof.Proof.Gen.ReferenceIdeal
import proofs.«124320_j8589935220_1_alg».proof.Proof.Gen.ReferenceIdeal.Run
import proofs.«124320_j8589935220_1_alg».proof.Proof.Gen.ReferenceIdeal.Read
import proofs.«124320_j8589935220_1_alg».proof.Proof.Gen.Pre_finite_inputs
import proofs.«124320_j8589935220_1_alg».proof.Proof.KernelRun
import proofs.«124320_j8589935220_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference's run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the result buffer at the reference's
    composed function of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Fold.out4 m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    rw [Cert.ReferenceIdeal.Read.val_main_v108_eq, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
